-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_v25) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x1024 : Shape := ⟨2, ![128, 1024]⟩
abbrev S128x1024x1024 : Shape := ⟨3, ![128, 1024, 1024]⟩
abbrev S_ : Shape := ⟨0, ![]⟩

class Facts : Prop where
  bcast_S_S128x1024 : S_.BroadcastsInDim S128x1024 (![] : Fin 0 → Fin S128x1024.rank)
  reducesTo_S128x1024_S_d0_1 : S128x1024.ReducesTo [0, 1] S_
  h_S_ : 0 < S_.numel
  bcast_S_S128x1024x1024 : S_.BroadcastsInDim S128x1024x1024 (![] : Fin 0 → Fin S128x1024x1024.rank)
  reducesTo_S128x1024x1024_S_d0_1_2 : S128x1024x1024.ReducesTo [0, 1, 2] S_

variable [Facts]

def fn {F : FTy → Type} [FloatOps F] (main_arg0 : FVec F S128x1024 .f32) (main_arg1 : FVec F S128x1024x1024 .f32) : IVec S_ 1 :=
  let main_v0 : FVec F S128x1024 .f32 := Host.absf main_arg0
  let main_cst : FVec F S_ .f32 := constant S_ .f32 0x7F800000#32
  let main_v1 : FVec F S128x1024 .f32 := broadcastInDim S128x1024 ![] bcast_S_S128x1024 main_cst
  let main_v2 : IVec S128x1024 1 := cmpf .olt main_v0 main_v1
  let main_c : IVec S_ 1 := constantI S_ 1 1#1
  let main_v3 : IVec S_ 1 := (fun x v => Host.reduce IntOp.andi x v reducesTo_S128x1024_S_d0_1 h_S_) main_v2 main_c
  let main_v4 : FVec F S128x1024x1024 .f32 := Host.absf main_arg1
  let main_cst_0 : FVec F S_ .f32 := constant S_ .f32 0x7F800000#32
  let main_v5 : FVec F S128x1024x1024 .f32 := broadcastInDim S128x1024x1024 ![] bcast_S_S128x1024x1024 main_cst_0
  let main_v6 : IVec S128x1024x1024 1 := cmpf .olt main_v4 main_v5
  let main_c_1 : IVec S_ 1 := constantI S_ 1 1#1
  let main_v7 : IVec S_ 1 := (fun x v => Host.reduce IntOp.andi x v reducesTo_S128x1024x1024_S_d0_1_2 h_S_) main_v6 main_c_1
  let main_v8 : IVec S_ 1 := andi main_v3 main_v7
  main_v8
-- ==== Kernel.lean ====
abbrev S128x1024 : Shape := ⟨2, ![128, 1024]⟩
abbrev S128x1024x1024 : Shape := ⟨3, ![128, 1024, 1024]⟩
abbrev S128x1x1024x1024 : Shape := ⟨4, ![128, 1, 1024, 1024]⟩
abbrev S8x1024 : Shape := ⟨2, ![8, 1024]⟩
abbrev S8x1024x256 : Shape := ⟨3, ![8, 1024, 256]⟩
abbrev S8x1x1024x256 : Shape := ⟨4, ![8, 1, 1024, 256]⟩
abbrev S8x256 : Shape := ⟨2, ![8, 256]⟩
abbrev S8x1024x1 : Shape := ⟨3, ![8, 1024, 1]⟩
abbrev S8x1x256 : Shape := ⟨3, ![8, 1, 256]⟩

abbrev nBuf : Space → Nat
  | .hbm => 4
  | .vmem => 8
  | .smem => 0
  | _ => 0

abbrev bufTy : (tb : Table) → Fin (tcTables nBuf tb) → BufTy
  | .hbm, ⟨0, _⟩ => ⟨S128x1024, .f32⟩
  | .hbm, ⟨1, _⟩ => ⟨S128x1024x1024, .f32⟩
  | .hbm, ⟨2, _⟩ => ⟨S128x1024, .f32⟩
  | .hbm, ⟨3, _⟩ => ⟨S128x1x1024x1024, .f32⟩
  | .local _ .vmem, ⟨0, _⟩ => ⟨S8x1024, .f32⟩
  | .local _ .vmem, ⟨1, _⟩ => ⟨S8x1024, .f32⟩
  | .local _ .vmem, ⟨2, _⟩ => ⟨S8x1024x256, .f32⟩
  | .local _ .vmem, ⟨3, _⟩ => ⟨S8x1024x256, .f32⟩
  | .local _ .vmem, ⟨4, _⟩ => ⟨S8x1024, .f32⟩
  | .local _ .vmem, ⟨5, _⟩ => ⟨S8x1024, .f32⟩
  | .local _ .vmem, ⟨6, _⟩ => ⟨S8x1x1024x256, .f32⟩
  | .local _ .vmem, ⟨7, _⟩ => ⟨S8x1x1024x256, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

def k0_mult1 (i : grid0.Coords) : BitVec 32 :=
  let arg1 : BitVec 32 := BitVec.ofNat 32 (i 1).val
  let c256_i32 : BitVec 32 := 256#32
  let v0 : BitVec 32 := Scalar.muli arg1 c256_i32
  v0
def k0_off1 (i : grid0.Coords) : Fin 2 → Nat :=
  let c0_10 : Index := 0#32
  let arg1 : BitVec 32 := BitVec.ofNat 32 (i 1).val
  let c256_i32 : BitVec 32 := 256#32
  let v0 : BitVec 32 := Scalar.muli arg1 c256_i32
  let v1 : BitVec 32 := v0
  let v22 : Index := Scalar.indexCast v1
  ![0, v22.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

abbrev stage0_0 : Fin 2 → Memref sig .tc .vmem S8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8x1x1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S8x1024_S8x1024_0_0 : ∀ a, (![0, 0] : Fin 2 → Nat) a + S8x1024.size a ≤ S8x1024.size a
  h_S8x1024 : 0 < S8x1024.numel
  h_S8x256 : 0 < S8x256.numel
  shapeCasts_S8x1024_S8x1024x1 : S8x1024.ShapeCasts S8x1024x1
  shapeCasts_S8x256_S8x1x256 : S8x256.ShapeCasts S8x1x256
  broadcasts_S8x1024x1_S8x1024x256 : S8x1024x1.Broadcasts S8x1024x256
  broadcasts_S8x1x256_S8x1024x256 : S8x1x256.Broadcasts S8x1024x256
  inb_S8x1024x256_S8x1024x256_0_0_0 : ∀ a, (![0, 0, 0] : Fin 3 → Nat) a + S8x1024x256.size a ≤ S8x1024x256.size a
  h_S8x1024x256 : 0 < S8x1024x256.numel
  inb_S8x1x1024x256_S8x1x1024x256_0_0_0_0 : ∀ a, (![0, 0, 0, 0] : Fin 4 → Nat) a + S8x1x1024x256.size a ≤ S8x1x1024x256.size a
  h_S8x1x1024x256 : 0 < S8x1x1024x256.numel
  shapeCasts_S8x1x1024x256_S8x1024x256 : S8x1x1024x256.ShapeCasts S8x1024x256
  shapeCasts_S8x1024x256_S8x1x1024x256 : S8x1024x256.ShapeCasts S8x1x1024x256
  hrank0 : 0 < grid0.rank
  k0_mult1_dvd : ∀ i : grid0.Coords, 256 ∣ (k0_mult1 i).toNat
  k0_off1_inb : ∀ i : grid0.Coords, ∀ a, (k0_off1 i) a + S8x256.size a ≤ S8x1024.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x1024.size a ≤ S128x1024.size a
  hwx0_0 : ∀ i : grid0.Coords, EltTy.bits .f32 = 32 ∨ (Rect.block (s := S128x1024) S8x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x1024x256.size a ≤ S128x1024x1024.size a
  hwx0_1 : ∀ i : grid0.Coords, EltTy.bits .f32 = 32 ∨ (Rect.block (s := S128x1024x1024) S8x1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x1024.size a ≤ S128x1024.size a
  hwx0_2 : ∀ i : grid0.Coords, EltTy.bits .f32 = 32 ∨ (Rect.block (s := S128x1024) S8x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x1x1024x256.size a ≤ S128x1x1024x1024.size a
  hwx0_3 : ∀ i : grid0.Coords, EltTy.bits .f32 = 32 ∨ (Rect.block (s := S128x1x1024x1024) S8x1x1024x256.size (cc0_transform_3 i) (hinb0_3 i)).WholeWords (EltTy.packing .f32)

variable [Facts₀]

abbrev win0_0 : Pipeline.Window sig grid0 :=
  Pipeline.Window.ofSpec (Memref.whole main_arg0) S8x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S8x1024.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S8x1x1024x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S128x1024 : Shape := ⟨2, ![128, 1024]⟩
abbrev S128x1024x1024 : Shape := ⟨3, ![128, 1024, 1024]⟩
abbrev S_ : Shape := ⟨0, ![]⟩
abbrev S128x1024x1 : Shape := ⟨3, ![128, 1024, 1]⟩
abbrev S128x1x1024 : Shape := ⟨3, ![128, 1, 1024]⟩
abbrev S128x1x1024x1024 : Shape := ⟨4, ![128, 1, 1024, 1024]⟩

abbrev nBuf : Space → Nat
  | .hbm => 36
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S128x1024x1024, .f32⟩
  | .hbm, ⟨2, _⟩ => ⟨S_, .f32⟩
  | .hbm, ⟨3, _⟩ => ⟨S128x1024, .f32⟩
  | .hbm, ⟨4, _⟩ => ⟨S128x1024, .i1⟩
  | .hbm, ⟨5, _⟩ => ⟨S128x1024, .f32⟩
  | .hbm, ⟨6, _⟩ => ⟨S_, .f32⟩
  | .hbm, ⟨7, _⟩ => ⟨S128x1024, .f32⟩
  | .hbm, ⟨8, _⟩ => ⟨S128x1024, .f32⟩
  | .hbm, ⟨9, _⟩ => ⟨S_, .f32⟩
  | .hbm, ⟨10, _⟩ => ⟨S128x1024, .f32⟩
  | .hbm, ⟨11, _⟩ => ⟨S128x1024, .f32⟩
  | .hbm, ⟨12, _⟩ => ⟨S128x1024, .f32⟩
  | .hbm, ⟨13, _⟩ => ⟨S_, .f32⟩
  | .hbm, ⟨14, _⟩ => ⟨S128x1024, .f32⟩
  | .hbm, ⟨15, _⟩ => ⟨S128x1024, .f32⟩
  | .hbm, ⟨16, _⟩ => ⟨S_, .f32⟩
  | .hbm, ⟨17, _⟩ => ⟨S128x1024, .f32⟩
  | .hbm, ⟨18, _⟩ => ⟨S128x1024, .i1⟩
  | .hbm, ⟨19, _⟩ => ⟨S_, .f32⟩
  | .hbm, ⟨20, _⟩ => ⟨S128x1024, .f32⟩
  | .hbm, ⟨21, _⟩ => ⟨S128x1024, .f32⟩
  | .hbm, ⟨22, _⟩ => ⟨S_, .f32⟩
  | .hbm, ⟨23, _⟩ => ⟨S128x1024, .f32⟩
  | .hbm, ⟨24, _⟩ => ⟨S128x1024, .f32⟩
  | .hbm, ⟨25, _⟩ => ⟨S128x1024, .f32⟩
  | .hbm, ⟨26, _⟩ => ⟨S_, .f32⟩
  | .hbm, ⟨27, _⟩ => ⟨S128x1024, .f32⟩
  | .hbm, ⟨28, _⟩ => ⟨S128x1024, .f32⟩
  | .hbm, ⟨29, _⟩ => ⟨S128x1024x1, .f32⟩
  | .hbm, ⟨30, _⟩ => ⟨S128x1x1024, .f32⟩
  | .hbm, ⟨31, _⟩ => ⟨S128x1024x1024, .f32⟩
  | .hbm, ⟨32, _⟩ => ⟨S128x1024x1024, .f32⟩
  | .hbm, ⟨33, _⟩ => ⟨S128x1024x1024, .f32⟩
  | .hbm, ⟨34, _⟩ => ⟨S128x1024x1024, .f32⟩
  | .hbm, ⟨35, _⟩ => ⟨S128x1x1024x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_cst_3 : Ref sig .tc := ⟨.hbm, 16, rfl⟩
abbrev main_v10 : Ref sig .tc := ⟨.hbm, 17, rfl⟩
abbrev main_v11 : Ref sig .tc := ⟨.hbm, 18, rfl⟩
abbrev main_cst_4 : Ref sig .tc := ⟨.hbm, 19, rfl⟩
abbrev main_v12 : Ref sig .tc := ⟨.hbm, 20, rfl⟩
abbrev main_v13 : Ref sig .tc := ⟨.hbm, 21, rfl⟩
abbrev main_cst_5 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_6 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]

class Facts₀ : Prop where
  bcast_S_S128x1024 : S_.BroadcastsInDim S128x1024 (![] : Fin 0 → Fin S128x1024.rank)
  bcast_S128x1024_S128x1024x1_0_1 : S128x1024.BroadcastsInDim S128x1024x1 (![0, 1] : Fin 2 → Fin S128x1024x1.rank)
  bcast_S128x1024_S128x1x1024_0_2 : S128x1024.BroadcastsInDim S128x1x1024 (![0, 2] : Fin 2 → Fin S128x1x1024.rank)
  bcast_S128x1024x1_S128x1024x1024_0_1_2 : S128x1024x1.BroadcastsInDim S128x1024x1024 (![0, 1, 2] : Fin 3 → Fin S128x1024x1024.rank)
  bcast_S128x1x1024_S128x1024x1024_0_1_2 : S128x1x1024.BroadcastsInDim S128x1024x1024 (![0, 1, 2] : Fin 3 → Fin S128x1024x1024.rank)
  bcast_S128x1024x1024_S128x1x1024x1024_0_2_3 : S128x1024x1024.BroadcastsInDim S128x1x1024x1024 (![0, 2, 3] : Fin 3 → Fin S128x1x1024x1024.rank)

variable [Facts₀]

class Facts : Prop extends Facts₀ where

variable [Facts]
-- ==== Proof.Selu.lean ====
/-
  The mathematics both programs compute, stated once on the extended reals.

  For an extended real `x` write `s`, `a`, `1`, `0` for the numbers the four float words denote (the SELU scale, the
  SELU alpha, one and zero — the same four words in both programs, never evaluated here).

    selu  x = s · (if 0 < x then x else a · (eˣ − 1))        the SELU activation
    dselu x = s · (if 0 < x then 1 else a · eˣ)              its derivative

  The first result is `selu` of `mu`, entry by entry. The second is the covariance `sigma` scaled by the rank-one
  matrix of derivatives: at `(b, 0, r, c)` it is `sigma (b, r, c) · (dselu (mu (b, r)) · dselu (mu (b, c)))`.

  One program evaluates the exponential at `min x 0` instead of at `x`. That changes nothing: where `0 < x` the
  exponential's branch is not selected, and where `x ≤ 0` the minimum is `x` itself (`sel_clamp`). The law is
  a case split on the order of the extended reals; it holds at the infinities too, so no finiteness is used.
-/
import Idealize.ShloMosaic.PureOps.Ideal
import Idealize.ShloMosaic.Lib.ValueIdx

noncomputable section

namespace Cert.Selu

open Idealize.ShloMosaic Idealize.ShloMosaic.ValueIdx

/-- The numbers the programs' four float words denote. -/
abbrev zeroW : EReal := Ideal.ofBits .f32 0x00000000#32
abbrev oneW : EReal := Ideal.ofBits .f32 0x3F800000#32
abbrev alphaW : EReal := Ideal.ofBits .f32 0x3FD62D7D#32
abbrev scaleW : EReal := Ideal.ofBits .f32 0x3F867D5F#32

/-- SELU: `s · x` on the positive side, `s · a · (eˣ − 1)` elsewhere. -/
def selu (x : EReal) : EReal := scaleW * (if zeroW < x then x else alphaW * (Ideal.exp x - oneW))

/-- SELU's derivative: `s` on the positive side, `s · a · eˣ` elsewhere. -/
def dselu (x : EReal) : EReal := scaleW * (if zeroW < x then oneW else alphaW * Ideal.exp x)

/-- A select on the comparison `z < x` is the conditional on that order relation. -/
theorem select_gt {α : Type} (x z : EReal) (p q : α) :
    Scalar.select (FloatOps.cmpf (F := Ideal) (φ := .f32) .ogt x z) p q = if z < x then p else q := by
  show Scalar.select (Ideal.cmp .ogt x z) p q = _
  unfold Ideal.cmp Scalar.select
  by_cases h : z < x
  · simp [h]
  · simp [h]

/-- Under the guard `z < x` failing, `min x z` is `x`: a function of the clamped argument in the unselected-when-positive
    branch may be read at the argument itself. -/
theorem sel_clamp {α : Type} (x z : EReal) (p : α) (f : EReal → α) :
    (if z < x then p else f (min x z)) = if z < x then p else f x := by
  by_cases h : z < x
  · simp [h]
  · simp [h, min_eq_left (not_lt.mp h)]

/-- The clamped form of SELU — the exponential taken at `min x 0` — is SELU. -/
theorem selu_clamped (x : EReal) :
    FloatOps.mulf (F := Ideal) (φ := .f32) (FloatOps.ofBits .f32 0x3F867D5F#32)
      (Scalar.select (FloatOps.cmpf (F := Ideal) (φ := .f32) .ogt x (FloatOps.ofBits .f32 0x00000000#32)) x
        (FloatOps.mulf (FloatOps.ofBits .f32 0x3FD62D7D#32)
          (FloatOps.subf (FloatOps.exp (FloatOps.minimumf x (FloatOps.ofBits .f32 0x00000000#32)))
            (FloatOps.ofBits .f32 0x3F800000#32))))
      = selu x := by
  rw [select_gt]
  show scaleW * (if zeroW < x then x else alphaW * (Ideal.exp (min x zeroW) - oneW)) = _
  unfold selu
  rw [sel_clamp x zeroW x (fun u => alphaW * (Ideal.exp u - oneW))]

/-- The clamped form of the derivative is the derivative. -/
theorem dselu_clamped (x : EReal) :
    FloatOps.mulf (F := Ideal) (φ := .f32) (FloatOps.ofBits .f32 0x3F867D5F#32)
      (Scalar.select (FloatOps.cmpf (F := Ideal) (φ := .f32) .ogt x (FloatOps.ofBits .f32 0x00000000#32))
        (FloatOps.ofBits .f32 0x3F800000#32)
        (FloatOps.mulf (FloatOps.ofBits .f32 0x3FD62D7D#32)
          (FloatOps.exp (FloatOps.minimumf x (FloatOps.ofBits .f32 0x00000000#32)))))
      = dselu x := by
  rw [select_gt]
  show scaleW * (if zeroW < x then oneW else alphaW * Ideal.exp (min x zeroW)) = _
  unfold dselu
  rw [sel_clamp x zeroW oneW (fun u => alphaW * Ideal.exp u)]

/-- The first result, entry by entry. -/
def muOut (mu : (⟨2, ![128, 1024]⟩ : Shape).Idx → EReal) : (⟨2, ![128, 1024]⟩ : Shape).Idx → EReal :=
  fun i => selu (mu i)

/-- The second result: entry `(b, 0, r, c)` is `sigma (b, r, c)` times the product of the derivatives at `(b, r)` and `(b, c)`. -/
def sigmaOut (mu : (⟨2, ![128, 1024]⟩ : Shape).Idx → EReal) (sigma : (⟨3, ![128, 1024, 1024]⟩ : Shape).Idx → EReal) :
    (⟨4, ![128, 1, 1024, 1024]⟩ : Shape).Idx → EReal :=
  fun i => sigma (ix3 (i 0) (i 2) (i 3)) * (dselu (mu (ix2 (i 0) (i 2))) * dselu (mu (ix2 (i 0) (i 3))))

end Cert.Selu

end
-- ==== Proof.RefSelu.lean ====
/-
  The reference program read as mathematics.

  Its first result multiplies the scale word into a select between `x` and `alpha · (exp x − 1)` on the comparison
  `0 < x`: that is the SELU activation of `mu`, entry by entry. Its second result first forms, from the same input,
  the row `d (b, k) = scale · (if 0 < mu (b, k) then 1 else alpha · exp (mu (b, k)))` of SELU derivatives, then
  broadcasts it twice into a cube — once constant along the last axis, so the cube reads row entry `(b, r)`, once
  constant along the middle axis, so it reads row entry `(b, c)` — multiplies the two cubes, multiplies `sigma` by
  the product, and finally inserts a unit axis. Entry `(b, 0, r, c)` of the result is therefore
  `sigma (b, r, c) · (d (b, r) · d (b, c))`: `sigma` times the outer product of the derivative row with itself.

  Every step is read at one index; the only work is to name the composed index maps of the broadcasts by coordinates.
  The four float words are carried as words and never evaluated.
-/
import proofs.«157219_j19353122636473_2_alg».proof.Proof.Gen.ReferenceIdeal.Read
import proofs.«157219_j19353122636473_2_alg».proof.Proof.Selu
import Idealize.ShloMosaic.Lib.ValueIdx
import Idealize.ShloMosaic.PureOps.Ideal

noncomputable section

namespace Cert.ReferenceIdeal.RefSelu

open Idealize.ShloMosaic Idealize.ShloMosaic.ValueIdx Cert.ReferenceIdeal Cert.ReferenceIdeal.Read

/-- The reference's first result is SELU of `mu`, entry by entry: the scale times the select, on `0 < x`, between
    `x` and `alpha · (exp x − 1)`. -/
theorem mu_eq (mu : (⟨S128x1024, .f32⟩ : BufTy).Contents (Elt Ideal)) :
    val_main_v9 (F := Ideal) mu = Cert.Selu.muOut mu := by
  funext i
  simp only [val_main_v9_apply, val_main_v8_apply, val_main_cst_2_apply, val_main_v7_apply, val_main_v1_apply,
    val_main_v0_apply, val_main_cst_apply, val_main_v6_apply, val_main_v5_apply, val_main_cst_1_apply,
    val_main_v4_apply, val_main_v2_apply, val_main_v3_apply, val_main_cst_0_apply,
    Ideal.mulf_def, Ideal.subf_def, Ideal.hostUnary_exp_def, Ideal.ofBits_def, Cert.Selu.select_gt]
  rfl

/-- The row the second result is built from is SELU's derivative of `mu`, entry by entry: the scale times the select,
    on `0 < x`, between one and `alpha · exp x`. -/
theorem drow_apply (mu : (⟨S128x1024, .f32⟩ : BufTy).Contents (Elt Ideal)) (j : S128x1024.Idx) :
    val_main_v18 (F := Ideal) mu j = Cert.Selu.dselu (mu j) := by
  simp only [val_main_v18_apply, val_main_v17_apply, val_main_cst_6_apply, val_main_v16_apply, val_main_v11_apply,
    val_main_v10_apply, val_main_cst_3_apply, val_main_v12_apply, val_main_cst_4_apply, val_main_v15_apply,
    val_main_v14_apply, val_main_cst_5_apply, val_main_v13_apply,
    Ideal.mulf_def, Ideal.hostUnary_exp_def, Ideal.ofBits_def, Cert.Selu.select_gt]
  rfl

/-- Dropping the unit axis of `(b, 0, r, c)` gives `(b, r, c)`. -/
theorem idx_out (i : S128x1x1024x1024.Idx) : idx_main_v25 i = ix3 (n0 := 128) (n1 := 1024) (n2 := 1024) (i 0) (i 2) (i 3) := by
  funext a
  match a with
  | ⟨0, _⟩ => rfl
  | ⟨1, _⟩ => rfl
  | ⟨2, _⟩ => rfl

/-- The cube that is constant along its last axis reads the row at `(b, r)`. -/
theorem idx_row (i : S128x1x1024x1024.Idx) :
    idx_main_v19 (idx_main_v21 (idx_main_v25 i)) = ix2 (n0 := 128) (n1 := 1024) (i 0) (i 2) := by
  funext a
  match a with
  | ⟨0, _⟩ => rfl
  | ⟨1, _⟩ => rfl

/-- The cube that is constant along its middle axis reads the row at `(b, c)`. -/
theorem idx_col (i : S128x1x1024x1024.Idx) :
    idx_main_v20 (idx_main_v22 (idx_main_v25 i)) = ix2 (n0 := 128) (n1 := 1024) (i 0) (i 3) := by
  funext a
  match a with
  | ⟨0, _⟩ => rfl
  | ⟨1, _⟩ => rfl

/-- The reference's second result is `sigma` times the outer product of the derivative row with itself: entry
    `(b, 0, r, c)` is `sigma (b, r, c) · (d (b, r) · d (b, c))`. -/
theorem sigma_eq (mu : (⟨S128x1024, .f32⟩ : BufTy).Contents (Elt Ideal))
    (sigma : (⟨S128x1024x1024, .f32⟩ : BufTy).Contents (Elt Ideal)) :
    val_main_v25 (F := Ideal) mu sigma = Cert.Selu.sigmaOut mu sigma := by
  funext i
  rw [val_main_v25_apply, val_main_v24_apply, val_main_v23_apply, val_main_v21_apply, val_main_v19_apply,
    val_main_v22_apply, val_main_v20_apply, idx_row, idx_col, idx_out, drow_apply, drow_apply]
  rfl

end Cert.ReferenceIdeal.RefSelu

end
-- ==== Proof.OuterLayout.lean ====
/-
  The three re-layouts that build an outer product inside one block, each read at explicit coordinates.

  A block holds 8 batch rows; `g` is an 8 × 1024 array of per-row factors and `h` an 8 × 256 array (a window of
  256 columns of the same rows). The outer product over a block is formed by

    column form:  8 × 1024  →  8 × 1024 × 1  →  8 × 1024 × 256      entry (b, r, c) reads g (b, r)
    row form:     8 × 256   →  8 × 1 × 256   →  8 × 1024 × 256      entry (b, r, c) reads h (b, c)

  (a reshape that appends or inserts an axis of extent one keeps the row-major position; a broadcast along an
  axis of extent one reads coordinate zero there), and the product block is stored with a unit axis inserted,

    8 × 1024 × 256  →  8 × 1 × 1024 × 256                          entry (b, 0, r, c) reads entry (b, r, c).

  All three hold for values of any type: they only move indices.
-/
import Idealize.ShloMosaic.Lib.Pipeline.Value
import Idealize.ShloMosaic.Lib.ValueIdx

noncomputable section

namespace Cert.OuterLayout

open Idealize.ShloMosaic Idealize.ShloMosaic.ValueIdx

variable {α : Type}

/-- Column form: appending a unit axis to `g` and broadcasting it along 256 columns reads `g (b, r)` at `(b, r, c)`. -/
theorem column_apply (g : (⟨2, ![8, 1024]⟩ : Shape).Idx → α)
    (h1 : (⟨2, ![8, 1024]⟩ : Shape).ShapeCasts ⟨3, ![8, 1024, 1]⟩)
    (h2 : (⟨3, ![8, 1024, 1]⟩ : Shape).Broadcasts ⟨3, ![8, 1024, 256]⟩)
    (b : Fin 8) (r : Fin 1024) (c : Fin 256) :
    broadcastTo ⟨3, ![8, 1024, 256]⟩ (shapeCast ⟨3, ![8, 1024, 1]⟩ g h1) h2 (ix3 b r c) = g (ix2 b r) := by
  rw [broadcastTo_apply _ h2 (ix3 b r c) (ix3 b r (0 : Fin 1)) (fun a => by
    match a with
    | ⟨0, _⟩ => show b.val = if (8 : Nat) = 1 then 0 else b.val; rw [if_neg (by decide)]
    | ⟨1, _⟩ => show r.val = if (1024 : Nat) = 1 then 0 else r.val; rw [if_neg (by decide)]
    | ⟨2, _⟩ => show (0 : Nat) = if (1 : Nat) = 1 then 0 else c.val; rw [if_pos rfl])]
  refine shapeCast_apply g h1 (ix3 b r (0 : Fin 1)) (ix2 b r) ?_
  rw [Shape.rowMajor_val_two, Shape.rowMajor_val_three]
  show b.val * 1024 + r.val = (b.val * 1024 + r.val) * 1 + 0
  omega

/-- Row form: inserting a unit axis into `h` and broadcasting it along 1024 rows reads `h (b, c)` at `(b, r, c)`. -/
theorem row_apply (h : (⟨2, ![8, 256]⟩ : Shape).Idx → α)
    (h1 : (⟨2, ![8, 256]⟩ : Shape).ShapeCasts ⟨3, ![8, 1, 256]⟩)
    (h2 : (⟨3, ![8, 1, 256]⟩ : Shape).Broadcasts ⟨3, ![8, 1024, 256]⟩)
    (b : Fin 8) (r : Fin 1024) (c : Fin 256) :
    broadcastTo ⟨3, ![8, 1024, 256]⟩ (shapeCast ⟨3, ![8, 1, 256]⟩ h h1) h2 (ix3 b r c) = h (ix2 b c) := by
  rw [broadcastTo_apply _ h2 (ix3 b r c) (ix3 b (0 : Fin 1) c) (fun a => by
    match a with
    | ⟨0, _⟩ => show b.val = if (8 : Nat) = 1 then 0 else b.val; rw [if_neg (by decide)]
    | ⟨1, _⟩ => show (0 : Nat) = if (1 : Nat) = 1 then 0 else r.val; rw [if_pos rfl]
    | ⟨2, _⟩ => show c.val = if (256 : Nat) = 1 then 0 else c.val; rw [if_neg (by decide)])]
  refine shapeCast_apply h h1 (ix3 b (0 : Fin 1) c) (ix2 b c) ?_
  rw [Shape.rowMajor_val_two, Shape.rowMajor_val_three]
  show b.val * 256 + c.val = (b.val * 1 + 0) * 256 + c.val
  omega

/-- Inserting a unit axis after the batch axis keeps every entry: `(b, 0, r, c)` reads `(b, r, c)`. -/
theorem unit_axis_apply (p : (⟨3, ![8, 1024, 256]⟩ : Shape).Idx → α)
    (h1 : (⟨3, ![8, 1024, 256]⟩ : Shape).ShapeCasts ⟨4, ![8, 1, 1024, 256]⟩)
    (b : Fin 8) (z : Fin 1) (r : Fin 1024) (c : Fin 256) :
    shapeCast ⟨4, ![8, 1, 1024, 256]⟩ p h1 (ix4 b z r c) = p (ix3 b r c) := by
  refine shapeCast_apply p h1 (ix4 b z r c) (ix3 b r c) ?_
  rw [Shape.rowMajor_val_three, Shape.rowMajor_val_four]
  show (b.val * 1024 + r.val) * 256 + c.val = ((b.val * 1 + z.val) * 1024 + r.val) * 256 + c.val
  have hz : z.val = 0 := by have := z.isLt; omega
  rw [hz]
  omega

end Cert.OuterLayout

end
-- ==== Proof.BlockValue.lean ====
/-
  What one grid point computes, as plain functions of the blocks it is given.

  At a grid point the body holds a block `x` of 8 rows of `mu` (all 1024 columns) and a block `s` of `sigma`
  (the same 8 rows, all 1024 matrix rows, a window of 256 matrix columns starting at column `o`).

    first output block:   entry (b, r)        is  selu (x (b, r))
    second output block:  entry (b, 0, r, c)  is  s (b, r, c) · (dselu (x (b, r)) · dselu (x (b, o + c)))

  The factor for the column window is computed from a second load of `x`, through the rectangle of 256 columns at
  offset `o`; a load through a unit-stride rectangle reads the block at the offset plus the local coordinate
  (`window_apply`). The outer product is formed by the column and row re-layouts of `OuterLayout`.

  The first two lemmas hold for every float instance: they only say which stored value each output's staging
  buffer ends with (one store covers each buffer whole, so the buffer holds that store's value). The last two read
  those values at the extended reals, where the clamped exponential agrees with the plain one (`Selu`).
-/
import proofs.«157219_j19353122636473_2_alg».proof.Proof.Gen.KernelIdeal.Frame
import proofs.«157219_j19353122636473_2_alg».proof.Proof.Selu
import proofs.«157219_j19353122636473_2_alg».proof.Proof.OuterLayout
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem Idealize.ShloMosaic.ValueIdx

namespace Cert.KernelIdeal.BlockValue

open Cert.KernelIdeal Cert.KernelIdeal.Gen

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

section AnyInstance

variable {F : FTy → Type} [FloatOps F]

/-- The 256 columns of the `mu` block starting at the point's column offset. -/
abbrev window (i : grid0.Coords) (x0 : Vec F S8x1024 .f32) : Vec F S8x256 .f32 :=
  View.ld x0 (Rect.unit (s := S8x1024) (k0_off1 i) S8x256.size (k0_off1_inb i))

/-- The first output's staging buffer ends with the one stored value: the SELU arithmetic of the whole `mu` block. -/
theorem out2_eq (c : Dev nD) (i : grid0.Coords) (a2 : Memref sig .tc .vmem S8x1024 .f32) (h2 : a2.IsWhole)
    (a3 : Memref sig .tc .vmem S8x1024x256 .f32) (h3 : a3.IsWhole) (a4 : Memref sig .tc .vmem S8x1024 .f32) (h4 : a4.IsWhole)
    (a5 : Memref sig .tc .vmem S8x1x1024x256 .f32) (h5 : a5.IsWhole)
    (x0 : Vec F S8x1024 .f32) (x1 : Vec F S8x1024x256 .f32) :
    out0_A_2 c i a2 h2 a3 h3 a4 h4 a5 h5 x0 x1 = k0_pay4 x0 := by
  unfold out0_A_2
  rw [View.read_writes_eq_canon _ _ _ (cover0_A_2 c i a2 h2 a3 h3 a4 h4 a5 h5 x0 x1)]
  unfold kernelRun0_A
  dsimp only
  rw [View.canon_unit_zero hz2]
  simp only [View.readAt_eq_ld, h2.read_unread, View.ld_unit_zero (S := S8x1024) hz2]

/-- The second output's staging buffer ends with the one stored value: the `sigma` block times the outer product of
    the derivative factors of the whole `mu` block and of its column window. -/
theorem out3_eq (c : Dev nD) (i : grid0.Coords) (a2 : Memref sig .tc .vmem S8x1024 .f32) (h2 : a2.IsWhole)
    (a3 : Memref sig .tc .vmem S8x1024x256 .f32) (h3 : a3.IsWhole) (a4 : Memref sig .tc .vmem S8x1024 .f32) (h4 : a4.IsWhole)
    (a5 : Memref sig .tc .vmem S8x1x1024x256 .f32) (h5 : a5.IsWhole)
    (x0 : Vec F S8x1024 .f32) (x1 : Vec F S8x1024x256 .f32) :
    out0_A_3 c i a2 h2 a3 h3 a4 h4 a5 h5 x0 x1 = k0_pay1 (k0_pay5 (window i x0)) (k0_pay6 x0) x1 := by
  unfold out0_A_3
  rw [View.read_writes_eq_canon _ _ _ (cover0_A_3 c i a2 h2 a3 h3 a4 h4 a5 h5 x0 x1)]
  unfold kernelRun0_A
  dsimp only
  sl_unfold_run_names
  rw [View.canon_unit_zero hz4]
  simp only [View.readAt_eq_ld, h2.read_unread, h3.read_unread, View.ld_unit_zero (S := S8x1024) hz2,
    View.ld_unit_zero (S := S8x1024x256) hz3]

end AnyInstance

/-- The column window reads the block at the offset plus the local column. -/
theorem window_apply (i : grid0.Coords) (x0 : Vec Ideal S8x1024 .f32) (b : Fin 8) (c : Fin 256) (q : Fin 1024)
    (h0 : k0_off1 i 0 = 0) (hq : q.val = k0_off1 i 1 + c.val) :
    window (F := Ideal) i x0 (ix2 b c) = x0 (ix2 b q) := by
  show x0 _ = x0 _
  refine congrArg x0 (funext fun a => Fin.ext ?_)
  match a with
  | ⟨0, _⟩ => show k0_off1 i 0 + 1 * b.val = b.val; rw [h0]; omega
  | ⟨1, _⟩ => show k0_off1 i 1 + 1 * c.val = q.val; omega

/-- The first output block, entry by entry: SELU of the `mu` block. -/
theorem mu_block (x0 : Vec Ideal S8x1024 .f32) (y : S8x1024.Idx) :
    k0_pay4 (F := Ideal) x0 y = Cert.Selu.selu (x0 y) :=
  Cert.Selu.selu_clamped (x0 y)

/-- The derivative row of a block of any 8-row shape, entry by entry. -/
theorem drow_full (x0 : Vec Ideal S8x1024 .f32) (b : Fin 8) (r : Fin 1024) (c : Fin 256) :
    k0_pay6 (F := Ideal) x0 (ix3 b r c) = Cert.Selu.dselu (x0 (ix2 b r)) := by
  unfold k0_pay6
  refine (Cert.OuterLayout.column_apply _ _ _ b r c).trans ?_
  exact Cert.Selu.dselu_clamped (x0 (ix2 b r))

/-- The second output block at `(b, z, r, c)` (the unit coordinate `z` is zero). -/
theorem sigma_block (v : Vec Ideal S8x256 .f32) (x0 : Vec Ideal S8x1024 .f32) (x1 : Vec Ideal S8x1024x256 .f32)
    (b : Fin 8) (z : Fin 1) (r : Fin 1024) (c : Fin 256) :
    k0_pay1 (F := Ideal) (k0_pay5 v) (k0_pay6 x0) x1 (ix4 b z r c)
      = x1 (ix3 b r c) * (Cert.Selu.dselu (x0 (ix2 b r)) * Cert.Selu.dselu (v (ix2 b c))) := by
  unfold k0_pay1
  refine (Cert.OuterLayout.unit_axis_apply _ _ b z r c).trans ?_
  show x1 (ix3 b r c) * (k0_pay6 x0 (ix3 b r c) * broadcastTo S8x1024x256 (k0_pay5 v) broadcasts_S8x1x256_S8x1024x256 (ix3 b r c)) = _
  rw [drow_full]
  unfold k0_pay5
  refine congrArg (fun u => x1 (ix3 b r c) * (Cert.Selu.dselu (x0 (ix2 b r)) * u)) ?_
  refine (Cert.OuterLayout.row_apply _ _ _ b r c).trans ?_
  exact Cert.Selu.dselu_clamped (v (ix2 b c))

end Cert.KernelIdeal.BlockValue

end
-- ==== Proof.PointValue.lean ====
/-
  What every grid point writes back is a block of ONE function of the whole arrays.

  The grid is 16 × 4. Point `t` has a block row `p` (8 batch rows, `8p … 8p + 7`) and a block column `q` (256 matrix
  columns, `256q … 256q + 255`). At that point

    the `mu` block        is rows `8p + b`, all columns,                          of `mu`;
    the `sigma` block     is rows `8p + b`, all matrix rows, columns `256q + c`,  of `sigma`;
    the column window     starts at column `256q` of the `mu` block;
    the first output's block  sits at rows `8p + b` (every `q` of one `p` addresses the same block);
    the second output's block sits at `(8p + b, 0, r, 256q + c)`.

  These relations between the index maps are decided once over the 64 points (`grid_facts`). With them the value a
  point computes (`BlockValue`), read at a local index, is the whole-array function `Selu.muOut` / `Selu.sigmaOut`
  read at the array index the output block places that local index at: the window's column `256q + c` is exactly
  the column coordinate of the output entry, so the outer product pairs `dselu (mu (8p+b, r))` with
  `dselu (mu (8p+b, 256q+c))`.
-/
import proofs.«157219_j19353122636473_2_alg».proof.Proof.Gen.KernelIdeal.Value
import proofs.«157219_j19353122636473_2_alg».proof.Proof.BlockValue

noncomputable section

open Idealize.ShloMosaic Idealize.ShloMosaic.TcCoe Idealize.SL.Sem Idealize.ShloMosaic.ValueIdx
open Idealize.ShloMosaic.Pipeline (Dat)

namespace Cert.KernelIdeal.PointValue

open Cert.KernelIdeal Cert.KernelIdeal.Gen Cert.KernelIdeal.BlockValue

variable (m : (ℓ : Loc nD τ sig) → Buf (Elt Ideal) ℓ)

/-- The index maps over the grid, relative to the second output's block row (axis 0) and block column (axis 3). -/
theorem grid_facts : ∀ t : Fin cfg0.N,
    win0_0.index t (0 : Fin 2) = win0_3.index t (0 : Fin 4) ∧ win0_0.index t (1 : Fin 2) = 0
    ∧ win0_1.index t (0 : Fin 3) = win0_3.index t (0 : Fin 4) ∧ win0_1.index t (1 : Fin 3) = 0
    ∧ win0_1.index t (2 : Fin 3) = win0_3.index t (3 : Fin 4)
    ∧ win0_2.index t (0 : Fin 2) = win0_3.index t (0 : Fin 4) ∧ win0_2.index t (1 : Fin 2) = 0
    ∧ win0_3.index t (1 : Fin 4) = 0 ∧ win0_3.index t (2 : Fin 4) = 0
    ∧ k0_off1 (grid0.coords t) 0 = 0 ∧ k0_off1 (grid0.coords t) 1 = 256 * win0_3.index t (3 : Fin 4)
    ∧ win0_3.index t (0 : Fin 4) < 16 ∧ win0_3.index t (3 : Fin 4) < 4 :=
  (by decide +kernel : ∀ t : Fin grid0.N, _)

/-- The `mu` block at point `t`, at a local index, is `mu` at the index its rectangle places it at. -/
theorem mu_blk_apply (c : Dev nD) (t : Fin cfg0.N) (x : S8x1024.Idx) (k : S128x1024.Idx)
    (hk0 : (k 0).val = win0_0.index t (0 : Fin 2) * 8 + (x 0).val)
    (hk1 : (k 1).val = win0_0.index t (1 : Fin 2) * 1024 + (x 1).val) :
    (iblk m c 0 t : Vec Ideal S8x1024 .f32) x = (V m c main_arg0 : S128x1024.Idx → EReal) k := by
  unfold iblk
  rw [View.read_apply]
  show V m c main_arg0 _ = V m c main_arg0 _
  refine congrArg (V m c main_arg0) (funext fun a => Fin.ext ?_)
  match a with
  | ⟨0, _⟩ => show win0_0.index t (0 : Fin 2) * 8 + 1 * (x 0).val = (k 0).val; omega
  | ⟨1, _⟩ => show win0_0.index t (1 : Fin 2) * 1024 + 1 * (x 1).val = (k 1).val; omega

/-- The `sigma` block at point `t`, at a local index, is `sigma` at the index its rectangle places it at. -/
theorem sigma_blk_apply (c : Dev nD) (t : Fin cfg0.N) (x : S8x1024x256.Idx) (k : S128x1024x1024.Idx)
    (hk0 : (k 0).val = win0_1.index t (0 : Fin 3) * 8 + (x 0).val)
    (hk1 : (k 1).val = win0_1.index t (1 : Fin 3) * 1024 + (x 1).val)
    (hk2 : (k 2).val = win0_1.index t (2 : Fin 3) * 256 + (x 2).val) :
    (iblk m c 1 t : Vec Ideal S8x1024x256 .f32) x = (V m c main_arg1 : S128x1024x1024.Idx → EReal) k := by
  unfold iblk
  rw [View.read_apply]
  show V m c main_arg1 _ = V m c main_arg1 _
  refine congrArg (V m c main_arg1) (funext fun a => Fin.ext ?_)
  match a with
  | ⟨0, _⟩ => show win0_1.index t (0 : Fin 3) * 8 + 1 * (x 0).val = (k 0).val; omega
  | ⟨1, _⟩ => show win0_1.index t (1 : Fin 3) * 1024 + 1 * (x 1).val = (k 1).val; omega
  | ⟨2, _⟩ => show win0_1.index t (2 : Fin 3) * 256 + 1 * (x 2).val = (k 2).val; omega

/-- What point `t` writes back to the first output is block `t` of SELU of `mu`. -/
theorem flushed2_eq (c : Dev nD) (t : Fin cfg0.N) :
    (dats m 0 c).flushed 2 t
      = ((cfg0.win 2).blk t).view.read (Elt Ideal) (Cert.Selu.muOut (V m c main_arg0)) := by
  refine (Cert.KernelIdeal.Value.flushed2_A m c t).trans ?_
  rw [out2_eq c (grid0.coords t) (ms0_0 t) (hs0_0 t) (ms0_1 t) (hs0_1 t) (ms0_2 t) (hs0_2 t) (ms0_3 t) (hs0_3 t)
    (iblk m c 0 t) (iblk m c 1 t)]
  obtain ⟨e00, e01, e10, e11, e12, e20, e21, e31, e32, o0, o1, b0, b3⟩ := grid_facts t
  funext y
  rw [View.read_apply]
  show k0_pay4 (F := Ideal) (iblk m c 0 t) y = Cert.Selu.selu (V m c main_arg0 (((cfg0.win 2).blk t).view.emb y))
  refine (mu_block (iblk m c 0 t) y).trans (congrArg Cert.Selu.selu ?_)
  refine mu_blk_apply m c t y (((cfg0.win 2).blk t).view.emb y) ?_ ?_
  · show win0_2.index t (0 : Fin 2) * 8 + 1 * (y 0).val = win0_0.index t (0 : Fin 2) * 8 + (y 0).val; omega
  · show win0_2.index t (1 : Fin 2) * 1024 + 1 * (y 1).val = win0_0.index t (1 : Fin 2) * 1024 + (y 1).val; omega

/-- What point `t` writes back to the second output is block `t` of `sigma` times the outer product of derivatives. -/
theorem flushed3_eq (c : Dev nD) (t : Fin cfg0.N) :
    (dats m 0 c).flushed 3 t
      = ((cfg0.win 3).blk t).view.read (Elt Ideal) (Cert.Selu.sigmaOut (V m c main_arg0) (V m c main_arg1)) := by
  refine (Cert.KernelIdeal.Value.flushed3_A m c t).trans ?_
  rw [out3_eq c (grid0.coords t) (ms0_0 t) (hs0_0 t) (ms0_1 t) (hs0_1 t) (ms0_2 t) (hs0_2 t) (ms0_3 t) (hs0_3 t)
    (iblk m c 0 t) (iblk m c 1 t)]
  obtain ⟨e00, e01, e10, e11, e12, e20, e21, e31, e32, o0, o1, b0, b3⟩ := grid_facts t
  funext y
  obtain ⟨b, z, r, cc, rfl⟩ : ∃ (b : Fin 8) (z : Fin 1) (r : Fin 1024) (cc : Fin 256), (y : S8x1x1024x256.Idx) = ix4 b z r cc :=
    ⟨y 0, y 1, y 2, y 3, eq_ix4 y⟩
  rw [View.read_apply]
  show k0_pay1 (F := Ideal) (k0_pay5 (window (grid0.coords t) (iblk m c 0 t))) (k0_pay6 (iblk m c 0 t)) (iblk m c 1 t) (ix4 b z r cc)
    = Cert.Selu.sigmaOut (V m c main_arg0) (V m c main_arg1) (((cfg0.win 3).blk t).view.emb (ix4 b z r cc))
  refine (sigma_block (window (grid0.coords t) (iblk m c 0 t)) (iblk m c 0 t) (iblk m c 1 t) b z r cc).trans ?_
  have hq : 256 * win0_3.index t (3 : Fin 4) + cc.val < 1024 := by have := cc.isLt; omega
  rw [window_apply (grid0.coords t) (iblk m c 0 t) b cc ⟨256 * win0_3.index t (3 : Fin 4) + cc.val, hq⟩ o0
    (by show 256 * win0_3.index t (3 : Fin 4) + cc.val = k0_off1 (grid0.coords t) 1 + cc.val; omega)]
  unfold Cert.Selu.sigmaOut
  have hz : z.val = 0 := by have := z.isLt; omega
  refine congr (congrArg HMul.hMul ?_) (congr (congrArg HMul.hMul (congrArg Cert.Selu.dselu ?_)) (congrArg Cert.Selu.dselu ?_))
  · refine sigma_blk_apply m c t (ix3 b r cc) _ ?_ ?_ ?_
    · show win0_3.index t (0 : Fin 4) * 8 + 1 * b.val = win0_1.index t (0 : Fin 3) * 8 + b.val; omega
    · show win0_3.index t (2 : Fin 4) * 1024 + 1 * r.val = win0_1.index t (1 : Fin 3) * 1024 + r.val; omega
    · show win0_3.index t (3 : Fin 4) * 256 + 1 * cc.val = win0_1.index t (2 : Fin 3) * 256 + cc.val; omega
  · refine mu_blk_apply m c t (ix2 b r) _ ?_ ?_
    · show win0_3.index t (0 : Fin 4) * 8 + 1 * b.val = win0_0.index t (0 : Fin 2) * 8 + b.val; omega
    · show win0_3.index t (2 : Fin 4) * 1024 + 1 * r.val = win0_0.index t (1 : Fin 2) * 1024 + r.val; omega
  · refine mu_blk_apply m c t (ix2 b ⟨256 * win0_3.index t (3 : Fin 4) + cc.val, hq⟩) _ ?_ ?_
    · show win0_3.index t (0 : Fin 4) * 8 + 1 * b.val = win0_0.index t (0 : Fin 2) * 8 + b.val; omega
    · show win0_3.index t (3 : Fin 4) * 256 + 1 * cc.val = win0_0.index t (1 : Fin 2) * 1024 + (256 * win0_3.index t (3 : Fin 4) + cc.val); omega

end Cert.KernelIdeal.PointValue

end
-- ==== Proof.Cover.lean ====
/-
  The blocks of the two output windows tile their arrays.

  The kernel runs on a 16 × 4 grid of points `(p, q)`. The first output, a `128 × 1024` array, is cut into
  16 blocks of 8 whole rows; the block at point `(p, q)` is block `(p, 0)` whatever `q` is, and it is written back
  once per `p`, at the last of its four points. So entry `(b, k)` lies in the block written back at the flushing point
  whose block index is `(b / 8, 0)`. The second output, a `128 × 1 × 1024 × 1024` array, is cut into 16 × 4 blocks of
  shape `8 × 1 × 1024 × 256`; point `(p, q)` owns block `(p, 0, 0, q)` and every point writes its block back. So
  entry `(b, z, r, c)` lies in the block of the point whose block index is `(b / 8, 0, 0, c / 256)`.

  An index is in a block exactly when, on every axis, its coordinate lies in the range
  `[index × extent, index × extent + extent)`; with the block index chosen as the quotient, that is the
  division-with-remainder inequality on each axis.
-/
import proofs.«157219_j19353122636473_2_alg».proof.Proof.Gen.KernelIdeal.Frame
import Idealize.ShloMosaic.Lib.Pipeline.Value

noncomputable section

namespace Cert.KernelIdeal.Cover

open Cert.KernelIdeal Cert.KernelIdeal.Gen Idealize.ShloMosaic Idealize.ShloMosaic.TcCoe Idealize.SL.Sem

/-- Every one of the 16 row blocks of the first output is the block of some point that writes it back. -/
theorem onto2 : ∀ q0 : Fin 16, ∃ t : Fin cfg0.N, (cfg0.win 2).flush t = true ∧ win0_2.index t = ![q0.val, 0] :=
  (by decide +kernel : ∀ q0 : Fin 16, ∃ t : Fin grid0.N, win0_2.flush t = true ∧ win0_2.index t = ![q0.val, 0])

/-- Every one of the 16 × 4 blocks of the second output is some point's block. -/
theorem onto3 : ∀ (q0 : Fin 16) (q3 : Fin 4), ∃ t : Fin cfg0.N, win0_3.index t = ![q0.val, 0, 0, q3.val] :=
  (by decide +kernel : ∀ (q0 : Fin 16) (q3 : Fin 4), ∃ t : Fin grid0.N, win0_3.index t = ![q0.val, 0, 0, q3.val])

/-- An index of the first output is in point `t`'s block iff each coordinate is in the block's range on its axis. -/
theorem mem_blk2 (t : Fin cfg0.N) (i : S128x1024.Idx) :
    i ∈ ((cfg0.win 2).blk t).view.set ↔ ∀ a : Fin 2, win0_2.index t a * S8x1024.size a ≤ (i a).val ∧ (i a).val < win0_2.index t a * S8x1024.size a + S8x1024.size a := by
  show i ∈ ((View.whole main_v0_0).slice (win0_2.rect t)).set ↔ _
  rw [View.set_slice_whole, Rect.mem_set_unit]
  exact Iff.rfl

/-- An index of the second output is in point `t`'s block iff each coordinate is in the block's range on its axis. -/
theorem mem_blk3 (t : Fin cfg0.N) (i : S128x1x1024x1024.Idx) :
    i ∈ ((cfg0.win 3).blk t).view.set ↔ ∀ a : Fin 4, win0_3.index t a * S8x1x1024x256.size a ≤ (i a).val ∧ (i a).val < win0_3.index t a * S8x1x1024x256.size a + S8x1x1024x256.size a := by
  show i ∈ ((View.whole main_v0_1).slice (win0_3.rect t)).set ↔ _
  rw [View.set_slice_whole, Rect.mem_set_unit]
  exact Iff.rfl

/-- Entry `(b, k)` of the first output is in the block written back at the flushing point of row block `b / 8`. -/
theorem cover2 (i : S128x1024.Idx) :
    ∃ t : Fin cfg0.N, (cfg0.win 2).flush t = true ∧ i ∈ ((cfg0.win 2).blk t).view.set := by
  have hi0 : (i 0).val < 128 := (i 0).isLt
  have hi1 : (i 1).val < 1024 := (i 1).isLt
  obtain ⟨t, hf, ht⟩ := onto2 ⟨(i 0).val / 8, by omega⟩
  have q0 : win0_2.index t (0 : Fin 2) = (i 0).val / 8 := congrFun ht 0
  have q1 : win0_2.index t (1 : Fin 2) = 0 := congrFun ht 1
  refine ⟨t, hf, ?_⟩
  rw [mem_blk2]
  intro a
  match a with
  | ⟨0, _⟩ => show win0_2.index t (0 : Fin 2) * 8 ≤ (i 0).val ∧ (i 0).val < win0_2.index t (0 : Fin 2) * 8 + 8; omega
  | ⟨1, _⟩ => show win0_2.index t (1 : Fin 2) * 1024 ≤ (i 1).val ∧ (i 1).val < win0_2.index t (1 : Fin 2) * 1024 + 1024; omega

/-- Entry `(b, z, r, c)` of the second output is in the block of the point with block index `(b / 8, 0, 0, c / 256)`;
    every point writes its block back. -/
theorem cover3 (i : S128x1x1024x1024.Idx) :
    ∃ t : Fin cfg0.N, (cfg0.win 3).flush t = true ∧ i ∈ ((cfg0.win 3).blk t).view.set := by
  have hi0 : (i 0).val < 128 := (i 0).isLt
  have hi1 : (i 1).val < 1 := (i 1).isLt
  have hi2 : (i 2).val < 1024 := (i 2).isLt
  have hi3 : (i 3).val < 1024 := (i 3).isLt
  obtain ⟨t, ht⟩ := onto3 ⟨(i 0).val / 8, by omega⟩ ⟨(i 3).val / 256, by omega⟩
  have q0 : win0_3.index t (0 : Fin 4) = (i 0).val / 8 := congrFun ht 0
  have q1 : win0_3.index t (1 : Fin 4) = 0 := congrFun ht 1
  have q2 : win0_3.index t (2 : Fin 4) = 0 := congrFun ht 2
  have q3 : win0_3.index t (3 : Fin 4) = (i 3).val / 256 := congrFun ht 3
  refine ⟨t, flush0_3 t, ?_⟩
  rw [mem_blk3]
  intro a
  match a with
  | ⟨0, _⟩ => show win0_3.index t (0 : Fin 4) * 8 ≤ (i 0).val ∧ (i 0).val < win0_3.index t (0 : Fin 4) * 8 + 8; omega
  | ⟨1, _⟩ => show win0_3.index t (1 : Fin 4) * 1 ≤ (i 1).val ∧ (i 1).val < win0_3.index t (1 : Fin 4) * 1 + 1; omega
  | ⟨2, _⟩ => show win0_3.index t (2 : Fin 4) * 1024 ≤ (i 2).val ∧ (i 2).val < win0_3.index t (2 : Fin 4) * 1024 + 1024; omega
  | ⟨3, _⟩ => show win0_3.index t (3 : Fin 4) * 256 ≤ (i 3).val ∧ (i 3).val < win0_3.index t (3 : Fin 4) * 256 + 256; omega

/-! ## The covers in use

With every index covered, an output array that each flushing point fills with its block of one function `G` ends
holding `G` everywhere. -/

section Whole

variable {F : FTy → Type} [FloatOps F] (m : (ℓ : Loc nD τ sig) → Buf (Elt F) ℓ)

example (c : Dev nD) (G : Buf (Elt F) ((cfg0.win 2).arr.view.loc (c.tc : Thread nD τ)))
    (hG : ∀ t, (cfg0.win 2).flush t = true → (dats m 0 c).flushed 2 t = ((cfg0.win 2).blk t).view.read (Elt F) G) :
    (dats m 0 c).arrAt 2 cfg0.N = G :=
  (dats m 0 c).arrAt_eq_of_cover 2 G hG cover2

example (c : Dev nD) (G : Buf (Elt F) ((cfg0.win 3).arr.view.loc (c.tc : Thread nD τ)))
    (hG : ∀ t, (cfg0.win 3).flush t = true → (dats m 0 c).flushed 3 t = ((cfg0.win 3).blk t).view.read (Elt F) G) :
    (dats m 0 c).arrAt 3 cfg0.N = G :=
  (dats m 0 c).arrAt_eq_of_cover 3 G hG cover3

end Whole

end Cert.KernelIdeal.Cover

end
-- ==== Proof.KernelRun.lean ====
/-
  The kernel's run, read: after it both result arrays hold the whole-array functions of the arguments.

  Every point that writes a block back writes the block of ONE function of the argument arrays (`PointValue`), and
  the blocks written back cover each result array (`Cover`). An array filled block by block with restrictions of
  one function holds that function, in whatever order the blocks land and however often a block is rewritten — the
  first result's block is rewritten at each of the four column steps of its block row, each time with the same
  values. So the first result ends as `Selu.muOut mu` and the second as `Selu.sigmaOut mu sigma`.
-/
import proofs.«157219_j19353122636473_2_alg».proof.Proof.PointValue
import proofs.«157219_j19353122636473_2_alg».proof.Proof.Cover

noncomputable section

open Idealize.ShloMosaic Idealize.ShloMosaic.TcCoe Idealize.SL.Sem
open Idealize.ShloMosaic.Pipeline (Dat)

namespace Cert.KernelIdeal.KernelRun

open Cert.KernelIdeal Cert.KernelIdeal.Gen

variable (m : (ℓ : Loc nD τ sig) → Buf (Elt Ideal) ℓ) (ρ : Dev nD → PrngReg)

/-- The first result array after the run: SELU of `mu`. -/
theorem final2 (c : Dev nD) : (dats m 0 c).arrAt 2 cfg0.N = Cert.Selu.muOut (V m c main_arg0) :=
  (dats m 0 c).arrAt_eq_of_cover 2 (Cert.Selu.muOut (V m c main_arg0))
    (fun t _ => Cert.KernelIdeal.PointValue.flushed2_eq m c t) Cert.KernelIdeal.Cover.cover2

/-- The second result array after the run: `sigma` times the outer product of derivatives. -/
theorem final3 (c : Dev nD) :
    (dats m 0 c).arrAt 3 cfg0.N = Cert.Selu.sigmaOut (V m c main_arg0) (V m c main_arg1) :=
  (dats m 0 c).arrAt_eq_of_cover 3 (Cert.Selu.sigmaOut (V m c main_arg0) (V m c main_arg1))
    (fun t _ => Cert.KernelIdeal.PointValue.flushed3_eq m c t) Cert.KernelIdeal.Cover.cover3

/-- Every weakly fair execution terminates with the results at those two functions of the arguments as launched, and
    the arguments unchanged. -/
theorem run : θ_run defs (onTc (τ := τ) (main (F := Ideal))) ⟨m, fun _ => 0, ρ⟩ fun r => ∀ c : Dev nD,
      r.2.mem ((c : Thread nD τ).loc main_v0_0) = Cert.Selu.muOut (m ((c : Thread nD τ).loc main_arg0))
      ∧ r.2.mem ((c : Thread nD τ).loc main_v0_1)
          = Cert.Selu.sigmaOut (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final2 m c), (h c).2.1.trans (final3 m c), (h c).2.2.1, (h c).2.2.2⟩)
    (Cert.KernelIdeal.Value.run_blocks m ρ)

end Cert.KernelIdeal.KernelRun

end
-- ==== Proof.lean ====
/-
  The kernel and its reference compute the same two arrays over the extended reals.

  From `mu` (128 × 1024) and `sigma` (128 × 1024 × 1024) both programs compute

    first result  (128 × 1024):              selu (mu (b, k))
    second result (128 × 1 × 1024 × 1024):   sigma (b, r, c) · (dselu (mu (b, r)) · dselu (mu (b, c)))

  where `selu x = s · (if 0 < x then x else a · (eˣ − 1))` is the SELU activation and
  `dselu x = s · (if 0 < x then 1 else a · eˣ)` its derivative (`Selu`; `s`, `a`, `1`, `0` are what the same four float
  words denote in both programs).

  The reference computes them in one pass over the whole arrays (`RefSelu`: its run read one operation at a time).
  The kernel tiles the arrays over a 16 × 4 grid — 8 batch rows by 256 matrix columns per point — and at each point
  forms the outer product of the derivative factors of its 8 rows with the factors of its column window, evaluating
  the exponential at `min x 0`. That clamp changes no value (where `0 < x` the exponential's branch is not selected,
  elsewhere `min x 0 = x`), each point's block is the matching block of the whole-array functions above
  (`BlockValue`, `PointValue`), and the blocks cover the result arrays (`Cover`), so the kernel's results are those
  functions too (`KernelRun`). The two programs agree entry by entry with the products taken in the same order; no
  algebraic law beyond the clamp's case split is used, so the values may be infinite and the precondition is never
  opened.

  The three frame claims are the generated frames (the reference's is its generated run with the results dropped).
  The idealization rewrote no operation, so what it preserves is `True`.
-/
import proofs.«157219_j19353122636473_2_alg».proof.Defs
import proofs.«157219_j19353122636473_2_alg».proof.Proof.Gen.Kernel
import proofs.«157219_j19353122636473_2_alg».proof.Proof.Gen.Kernel.Skeleton
import proofs.«157219_j19353122636473_2_alg».proof.Proof.Gen.Kernel.Launch
import proofs.«157219_j19353122636473_2_alg».proof.Proof.Gen.Kernel.Points
import proofs.«157219_j19353122636473_2_alg».proof.Proof.Gen.Kernel.Frame
import proofs.«157219_j19353122636473_2_alg».proof.Proof.Gen.KernelIdeal
import proofs.«157219_j19353122636473_2_alg».proof.Proof.Gen.KernelIdeal.Skeleton
import proofs.«157219_j19353122636473_2_alg».proof.Proof.Gen.KernelIdeal.Launch
import proofs.«157219_j19353122636473_2_alg».proof.Proof.Gen.KernelIdeal.Points
import proofs.«157219_j19353122636473_2_alg».proof.Proof.Gen.KernelIdeal.Frame
import proofs.«157219_j19353122636473_2_alg».proof.Proof.Gen.KernelIdeal.Value
import proofs.«157219_j19353122636473_2_alg».proof.Proof.Gen.ReferenceIdeal
import proofs.«157219_j19353122636473_2_alg».proof.Proof.Gen.ReferenceIdeal.Run
import proofs.«157219_j19353122636473_2_alg».proof.Proof.Gen.ReferenceIdeal.Read
import proofs.«157219_j19353122636473_2_alg».proof.Proof.Gen.Pre_finite_inputs
import proofs.«157219_j19353122636473_2_alg».proof.Proof.RefSelu
import proofs.«157219_j19353122636473_2_alg».proof.Proof.KernelRun
import Idealize.ShloMosaic.Adequacy
import Idealize.ShloMosaic.Init

noncomputable section

namespace Cert.Proof

open Idealize.ShloMosaic Idealize.ShloMosaic.TcCoe Idealize.SL.Sem

/-- The word-level kernel runs, faults nowhere and leaves its arguments unchanged. -/
theorem frame_kernel [Cert.Kernel.Facts] [Cert.Pre_finite_inputs.Facts] : Cert.frame_Kernel :=
  fun m ρ _ => Cert.Kernel.Gen.frame m ρ

/-- So does the idealized kernel. -/
theorem frame_kernel_ideal [Cert.KernelIdeal.Facts] [Cert.Pre_finite_inputs.Facts] : Cert.frame_KernelIdeal :=
  fun m ρ _ => Cert.KernelIdeal.Gen.frame m ρ

/-- So does the idealized reference: its run, with the two results dropped. -/
theorem frame_reference_ideal [Cert.ReferenceIdeal.Facts] [Cert.Pre_finite_inputs.Facts] : Cert.frame_ReferenceIdeal :=
  fun m ρ _ => (θ_run Cert.ReferenceIdeal.defs _ _).mono (fun _ h c => (h c).2.2)
    (Cert.ReferenceIdeal.Value.run (F := Ideal) m ρ)

/-- The idealization rewrote nothing. -/
theorem preserves : Cert.preserves_Kernel_KernelIdeal := trivial

/-- From memories that agree on `mu` and `sigma`, both idealized programs end with the first result at SELU of `mu`
    and the second at `sigma` times the outer product of SELU's derivative of `mu` with itself. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.Selu.muOut (m ((c.tc : Thread Cert.KernelIdeal.nD Cert.KernelIdeal.τ).loc Cert.KernelIdeal.main_arg0)),
    fun c => Cert.Selu.sigmaOut (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.KernelRun.run m ρ, ?_⟩
  refine (θ_run Cert.ReferenceIdeal.defs _ _).mono (fun _ h c => ⟨?_, ?_, (h c).2.2.1, (h c).2.2.2⟩)
    (Cert.ReferenceIdeal.Value.run (F := Ideal) m' ρ')
  · rw [(h c).1, Cert.ReferenceIdeal.Read.val_main_v9_eq, Cert.ReferenceIdeal.RefSelu.mu_eq, (hagree c).1]
  · rw [(h c).2.1, Cert.ReferenceIdeal.Read.val_main_v25_eq, Cert.ReferenceIdeal.RefSelu.sigma_eq, (hagree c).1,
      (hagree c).2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
